-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S100000x128 .f32) (main_v33 : IVec S_ 1) : IVec S_ 1 :=
  let main_v34 : FVec F S100000x128 .f32 := Host.absf main_arg9
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg6 : FVec F S128x128 .f32) (main_arg7 : FVec F S128x128 .f32) (main_arg8 : FVec F S128 .f32) (main_arg9 : FVec F S100000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 53
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .f32 = 32 ∨ (Rect.block (s := S100000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S4000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .i1⟩
  | .hbm, ⟨47, _⟩ => ⟨S_, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result named. The program is four stretches — host operations,
  the first layer's region, host operations, the second layer's region — and each boundary's buffer contents
  are a fold from the launch memory. Every weakly fair execution terminates without a fault; at the end every
  unscoped buffer holds the last boundary's contents, so the result array holds what the second region's
  write-backs leave in it and each argument array is as launched.
-/
import proofs.«112854_j6193342841309_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of @main terminates without a fault, with the result array at what the last
    region's write-backs leave in it (the last boundary's contents, by name) and every argument array as launched. -/
theorem run_named : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Sage.KernelRun

end
-- ==== Proof.LibRowScale.lean ====
/-
  A row of a matrix product divided by a number that is at least one.

  On the extended reals multiplication does not distribute over addition in general, but it does when the
  common factor is a non-negative real. The reciprocal of an extended real `d ≥ 1` is such a factor (it is
  `0` when `d = +∞`), and dividing by `d` is multiplying by that reciprocal. So a dot product scaled by
  `1 / d` afterwards equals the dot product of the row scaled by `1 / d` beforehand, whatever the entries
  are — finite or not.
-/
import Mathlib.Data.EReal.Inv
import Idealize.ShloMosaic.PureOps.Ideal

namespace Cert.Lib.RowScale

open Idealize.ShloMosaic

/-- A finite sum times a non-negative finite factor is the sum of the products. -/
theorem sum_mul_of_nonneg_of_ne_top {ι : Type*} (s : Finset ι) (f : ι → EReal) {c : EReal} (h0 : 0 ≤ c)
    (ht : c ≠ ⊤) : (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- Off zero the ideal quotient is the product with the inverse. -/
theorem div_eq_mul_inv {d : EReal} (hd : d ≠ 0) (x : EReal) : Ideal.div x d = x * d⁻¹ := by
  unfold Ideal.div
  rw [if_neg hd]

/-- The dot product of `a` and `w`, times `1 / d`, is the dot product of `a / d` and `w`, for every `d ≥ 1`. -/
theorem dot_mul_one_div {K : Nat} (a w : Fin K → EReal) {d : EReal} (hd : 1 ≤ d) :
    (∑ k, a k * w k) * Ideal.div 1 d = ∑ k, Ideal.div (a k) d * w k := by
  have hd0 : d ≠ 0 := (lt_of_lt_of_le zero_lt_one hd).ne'
  rw [div_eq_mul_inv hd0, one_mul,
    sum_mul_of_nonneg_of_ne_top _ _ (EReal.inv_nonneg_of_nonneg (le_trans zero_le_one hd)) (EReal.inv_lt_top d).ne]
  refine Finset.sum_congr rfl fun k _ => ?_
  rw [div_eq_mul_inv hd0, mul_right_comm]

end Cert.Lib.RowScale
-- ==== Proof.Spec.lean ====
/-
  One GraphSAGE layer with the mean aggregator, entry by entry on the extended reals, in the two arrangements
  the programs use, and the law between them.

  With `x` the node features, `ns` the sum of the features of each node's in-neighbours and `d` the clamped
  in-degree (at least one), entry `(p, q)` of the layer is
      Σ_k x(p,k)·Ws(k,q) + Σ_k (ns(p,k) / d(p))·Wn(k,q) + b(q).
  The kernel divides after the product: it multiplies the whole neighbour dot product by `1 / d(p)`, handed
  to it as a column, and reads the bias as a one-row matrix. The two agree for every `d(p) ≥ 1`.
-/
import Idealize.ShloMosaic.PureOps.Ideal
import Idealize.ShloMosaic.Lib.ValueIdx
import proofs.«112854_j6193342841309_2_alg».proof.Proof.LibRowScale

noncomputable section

namespace Cert.Sage

open Idealize.ShloMosaic Idealize.ShloMosaic.ValueIdx

/-- A matrix of extended reals of literal extents. -/
abbrev Mat (a b : Nat) : Type := FVec Ideal ⟨2, ![a, b]⟩ .f32
/-- A vector of extended reals of a literal extent. -/
abbrev Vc (a : Nat) : Type := FVec Ideal ⟨1, ![a]⟩ .f32

/-- Entry `(p, q)` of the layer as the kernel computes a row block of it: the neighbour product scaled by the
    column `c`. -/
def entryScaled {n : Nat} (x ns : Mat n 128) (c : Mat n 1) (Ws Wn : Mat 128 128) (b : Mat 1 128) (p : Fin n)
    (q : Fin 128) : EReal :=
  ((∑ k : Fin 128, x (ix2 p k) * Ws (ix2 k q)) + (∑ k : Fin 128, ns (ix2 p k) * Wn (ix2 k q)) * c (ix2 p 0))
    + b (ix2 0 q)

/-- The layer in the kernel's arrangement, as a matrix. -/
def layerScaled {n : Nat} (x ns : Mat n 128) (c : Mat n 1) (Ws Wn : Mat 128 128) (b : Mat 1 128) : Mat n 128 :=
  fun i => entryScaled x ns c Ws Wn b (i 0) (i 1)

/-- Entry `(p, q)` of the layer as the reference computes it: the neighbour sums divided by the degree before
    the product. -/
def entryMean (x ns : Mat 100000 128) (d : Vc 100000) (Ws Wn : Mat 128 128) (b : Vc 128) (p : Fin 100000)
    (q : Fin 128) : EReal :=
  ((∑ k : Fin 128, x (ix2 p k) * Ws (ix2 k q)) + ∑ k : Fin 128, Ideal.div (ns (ix2 p k)) (d (ix1 p)) * Wn (ix2 k q))
    + b (ix1 q)

/-- The layer in the reference's arrangement, as a matrix. -/
def layerMean (x ns : Mat 100000 128) (d : Vc 100000) (Ws Wn : Mat 128 128) (b : Vc 128) : Mat 100000 128 :=
  fun i => entryMean x ns d Ws Wn b (i 0) (i 1)

/-- The two arrangements agree entry by entry when the column holds `1 / d`, `d ≥ 1`, and the one-row matrix holds
    the bias. -/
theorem entryScaled_eq_entryMean (x ns : Mat 100000 128) (c : Mat 100000 1) (d : Vc 100000) (Ws Wn : Mat 128 128)
    (brow : Mat 1 128) (b : Vc 128) (hc : ∀ p : Fin 100000, c (ix2 p 0) = Ideal.div 1 (d (ix1 p)))
    (hd : ∀ p : Fin 100000, 1 ≤ d (ix1 p)) (hb : ∀ q : Fin 128, brow (ix2 0 q) = b (ix1 q)) (p : Fin 100000)
    (q : Fin 128) : entryScaled x ns c Ws Wn brow p q = entryMean x ns d Ws Wn b p q := by
  unfold entryScaled entryMean
  rw [hc, hb, Cert.Lib.RowScale.dot_mul_one_div _ _ (hd p)]

/-- So the two matrices are equal. -/
theorem layerScaled_eq_layerMean (x ns : Mat 100000 128) (c : Mat 100000 1) (d : Vc 100000) (Ws Wn : Mat 128 128)
    (brow : Mat 1 128) (b : Vc 128) (hc : ∀ p : Fin 100000, c (ix2 p 0) = Ideal.div 1 (d (ix1 p)))
    (hd : ∀ p : Fin 100000, 1 ≤ d (ix1 p)) (hb : ∀ q : Fin 128, brow (ix2 0 q) = b (ix1 q)) :
    layerScaled x ns c Ws Wn brow = layerMean x ns d Ws Wn b :=
  funext fun i => entryScaled_eq_entryMean x ns c d Ws Wn brow b hc hd hb (i 0) (i 1)

/-- ReLU followed by the dropout mask read off the uniform draws `u`: kept entries are doubled. -/
def reluDrop {n : Nat} (y u : Mat n 128) : Mat n 128 :=
  fun i => max (y i) (Ideal.ofBits .f32 0x00000000#32)
    * Scalar.select (Ideal.cmp .ogt (u i) (Ideal.ofBits .f32 0x3F000000#32)) (Ideal.ofBits .f32 0x40000000#32)
        (Ideal.ofBits .f32 0x00000000#32)

end Cert.Sage

end
-- ==== Proof.Payload.lean ====
/-
  What each kernel body stores, as a function of the blocks it loads: a row block of the layer in the kernel's
  arrangement — two matrix products into zero accumulators, the neighbour product scaled row by row by the
  column it is handed, the bias row added — and, for the first layer, ReLU and the dropout mask. The changes of
  float format on the way into the products are the identity on the extended reals.
-/
import proofs.«112854_j6193342841309_2_alg».proof.Proof.Gen.KernelIdeal.Skeleton
import proofs.«112854_j6193342841309_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Payload

open Cert.KernelIdeal Cert.KernelIdeal.Gen Idealize.ShloMosaic Idealize.ShloMosaic.ValueIdx

/-- The dimension record of the body's two products: rows times columns, one contracted axis of extent 128. -/
abbrev D := dot_S4000x128_S128x128_S4000x128_1_0_0_1_n_n

theorem lhs_row (i : S4000x128.Idx) (z : D.contr.Idx) : (D.lhsIdx i z 0).val = (i 0).val := by
  unfold DotDims.lhsIdx
  rw [dif_neg (show ¬(0 : Fin S4000x128.rank) ∈ D.lhsBatch by decide),
    dif_pos (show (0 : Fin S4000x128.rank) ∈ D.lhsNonContracting by decide)]
  rfl

theorem rhs_col (i : S4000x128.Idx) (z : D.contr.Idx) : (D.rhsIdx i z 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- A product of a row block with a square matrix into a zero accumulator, at entry `(p, q)`: the sum over the
    contracted index of the row's entries times the column's. -/
theorem matmul_entry {φ₁ φ₂ : FTy} (l : FVec Ideal S4000x128 φ₁) (r : FVec Ideal S128x128 φ₂) (p : Fin 4000)
    (q : Fin 128) :
    matmul D none l r (constant S4000x128 .f32 0x00000000#32) (ix2 p q) = ∑ k : Fin 128, l (ix2 p k) * r (ix2 k q) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((ValueIdx.contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-- A column `[4000, 1]` broadcast along the rows' entries: entry `(p, q)` is the column's entry `(p, 0)`. -/
theorem bcast_col {α : Type} (v : S4000x1.Idx → α) (h : S4000x1.Broadcasts S4000x128) (p : Fin 4000) (q : Fin 128) :
    broadcastTo S4000x128 v h (ix2 p q) = v (ix2 p 0) := by
  refine broadcastTo_apply v h (ix2 p q) (ix2 p 0) fun ax => ?_
  match ax with
  | ⟨0, _⟩ =>
    show p.val = if (4000 : Nat) = 1 then 0 else p.val
    rw [if_neg (by decide)]
  | ⟨1, _⟩ =>
    show 0 = if (1 : Nat) = 1 then 0 else q.val
    rw [if_pos rfl]

/-- The first layer's stored block. -/
theorem pay0_eq (v0 v2 : Vec Ideal S4000x128 .f32) (v5 v7 : Vec Ideal S128x128 .f32) (v11 : Vec Ideal S4000x1 .f32)
    (v16 : Vec Ideal S1x128 .f32) (v22 : Vec Ideal S4000x128 .f32) :
    k0_pay1 (F := Ideal) v0 v2 v5 v7 v11 v16 v22 = reluDrop (layerScaled v0 v2 v11 v5 v7 v16) v22 := by
  funext j
  obtain ⟨p, q, rfl⟩ : ∃ (p : Fin 4000) (q : Fin 128), j = ix2 p q := ⟨j 0, j 1, eq_ix2 j⟩
  unfold k0_pay1 reluDrop layerScaled entryScaled
  simp only [mulf_apply, addf_apply, maximumf_apply, select_apply, cmpf_apply, broadcast_apply, truncf_apply,
    shapeCast_self, matmul_entry, bcast_col, broadcastTo_1b_ab_apply]
  rfl

/-- The second layer's stored block. -/
theorem pay1_eq (v0 v3 : Vec Ideal S4000x128 .f32) (v6 v8 : Vec Ideal S128x128 .f32) (v12 : Vec Ideal S4000x1 .f32)
    (v17 : Vec Ideal S1x128 .f32) :
    k1_pay1 (F := Ideal) v0 v3 v6 v8 v12 v17 = layerScaled v0 v3 v12 v6 v8 v17 := by
  funext j
  obtain ⟨p, q, rfl⟩ : ∃ (p : Fin 4000) (q : Fin 128), j = ix2 p q := ⟨j 0, j 1, eq_ix2 j⟩
  unfold k1_pay1 layerScaled entryScaled
  simp only [mulf_apply, addf_apply, truncf_apply, shapeCast_self, matmul_entry, bcast_col, broadcastTo_1b_ab_apply]

end Cert.Sage.Payload

end
-- ==== Proof.BlockCongr.lean ====
/-
  A row block of the layer is the layer of the row blocks: an entry of the layer depends on one row of the
  features, of the neighbour sums and of the scaling column, on one column of each weight matrix and on one
  entry of the bias row. So if a block's rows are rows of the whole arrays, the block-level entry `(p, q)` is
  the whole-array entry at the row `P` the block's row `p` sits at.
-/
import proofs.«112854_j6193342841309_2_alg».proof.Proof.Spec

noncomputable section

namespace Cert.Sage

open Idealize.ShloMosaic Idealize.ShloMosaic.ValueIdx

theorem entryScaled_block {n N : Nat} (xb nsb : Mat n 128) (cb : Mat n 1) (Wsb Wnb : Mat 128 128) (bb : Mat 1 128)
    (x ns : Mat N 128) (c : Mat N 1) (Ws Wn : Mat 128 128) (b : Mat 1 128) (p : Fin n) (P : Fin N) (q : Fin 128)
    (hx : ∀ k : Fin 128, xb (ix2 p k) = x (ix2 P k)) (hns : ∀ k : Fin 128, nsb (ix2 p k) = ns (ix2 P k))
    (hc : cb (ix2 p 0) = c (ix2 P 0)) (hWs : ∀ k : Fin 128, Wsb (ix2 k q) = Ws (ix2 k q))
    (hWn : ∀ k : Fin 128, Wnb (ix2 k q) = Wn (ix2 k q)) (hb : bb (ix2 0 q) = b (ix2 0 q)) :
    entryScaled xb nsb cb Wsb Wnb bb p q = entryScaled x ns c Ws Wn b P q := by
  unfold entryScaled
  simp only [hx, hns, hc, hWs, hWn, hb]

theorem layerScaled_block {n N : Nat} (xb nsb : Mat n 128) (cb : Mat n 1) (Wsb Wnb : Mat 128 128) (bb : Mat 1 128)
    (x ns : Mat N 128) (c : Mat N 1) (Ws Wn : Mat 128 128) (b : Mat 1 128) (p : Fin n) (P : Fin N) (q : Fin 128)
    (hx : ∀ k : Fin 128, xb (ix2 p k) = x (ix2 P k)) (hns : ∀ k : Fin 128, nsb (ix2 p k) = ns (ix2 P k))
    (hc : cb (ix2 p 0) = c (ix2 P 0)) (hWs : ∀ k : Fin 128, Wsb (ix2 k q) = Ws (ix2 k q))
    (hWn : ∀ k : Fin 128, Wnb (ix2 k q) = Wn (ix2 k q)) (hb : bb (ix2 0 q) = b (ix2 0 q)) :
    layerScaled xb nsb cb Wsb Wnb bb (ix2 p q) = layerScaled x ns c Ws Wn b (ix2 P q) :=
  entryScaled_block xb nsb cb Wsb Wnb bb x ns c Ws Wn b p P q hx hns hc hWs hWn hb

theorem reluDrop_block {n N : Nat} (yb ub : Mat n 128) (y u : Mat N 128) (p : Fin n) (P : Fin N) (q : Fin 128)
    (hy : yb (ix2 p q) = y (ix2 P q)) (hu : ub (ix2 p q) = u (ix2 P q)) :
    reluDrop yb ub (ix2 p q) = reluDrop y u (ix2 P q) := by
  simp only [reluDrop, hy, hu]

end Cert.Sage

end
-- ==== Proof.Layer1.lean ====
/-
  The first region, from any contents of the buffers at its entry: the output array ends holding the first
  layer — ReLU and the dropout mask applied to the layer in the kernel's arrangement — of the arrays its
  windows read. Point `t` of the 25 reads rows `4000·t … 4000·t + 3999` of the features, of the neighbour sums,
  of the scaling column and of the uniform draws, the whole weight matrices and the bias row, and writes the same
  rows of the output; the 25 row blocks cover the output.
-/
import proofs.«112854_j6193342841309_2_alg».proof.Proof.Gen.KernelIdeal.Frame
import proofs.«112854_j6193342841309_2_alg».proof.Proof.Payload
import proofs.«112854_j6193342841309_2_alg».proof.Proof.BlockCongr
import Idealize.ShloMosaic.Lib.Pipeline.Value

set_option maxRecDepth 16384

noncomputable section

namespace Cert.Sage.Layer1

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the first layer of the arrays the windows read. -/
abbrev G (c : Dev nD) : Mat 100000 128 :=
  reluDrop (layerScaled (V c main_arg0) (V c main_v18) (V c main_v8) (V c main_arg3) (V c main_arg4) (V c main_v19))
    (V c main_arg9)

/-- The printed index maps over the grid: the row-tiled windows are at block row `t`, the whole-array windows
    at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 25 := lt_of_lt_of_eq t.isLt N_0

/-- The row of the whole arrays that row `p` of point `t`'s blocks sits at. -/
def rowAt (t : Fin cfg0.N) (p : Fin 4000) : Fin 100000 := ⟨t.val * 4000 + p.val, by have := point_lt t; omega⟩

/-! ## Where a block's entries sit in the arrays -/

theorem emb0 (t : Fin cfg0.N) (p : Fin 4000) (k : Fin 128) :
    ((cfg0.win 0).blk t).view.emb (ix2 p k) = ix2 (rowAt t p) k := by
  obtain ⟨e0, e1, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem emb1 (t : Fin cfg0.N) (p : Fin 4000) (k : Fin 128) :
    ((cfg0.win 1).blk t).view.emb (ix2 p k) = ix2 (rowAt t p) k := by
  obtain ⟨-, -, e0, e1, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

theorem emb2 (t : Fin cfg0.N) (p : Fin 4000) :
    ((cfg0.win 2).blk t).view.emb (ix2 p (0 : Fin 1)) = ix2 (rowAt t p) (0 : Fin 1) := by
  obtain ⟨-, -, -, -, e0, e1, -⟩ := idx_facts t
  funext a; apply Fin.ext
  match a with
  | ⟨0, _⟩ => show win0_2.index t (0 : Fin 2) * 4000 + 1 * p.val = t.val * 4000 + p.val; omega
  | ⟨1, _⟩ => show win0_2.index t (1 : Fin 2) * 1 + 1 * 0 = 0; omega

theorem emb3 (t : Fin cfg0.N) (k q : Fin 128) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb4 (t : Fin cfg0.N) (k q : Fin 128) : ((cfg0.win 4).blk t).view.emb (ix2 k q) = ix2 k q := by
  obtain ⟨-, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem emb5 (t : Fin cfg0.N) (q : Fin 128) :
    ((cfg0.win 5).blk t).view.emb (ix2 (0 : Fin 1) q) = ix2 (0 : Fin 1) q := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * q.val = q.val; omega

theorem emb6 (t : Fin cfg0.N) (p : Fin 4000) (k : Fin 128) :
    ((cfg0.win 6).blk t).view.emb (ix2 p k) = ix2 (rowAt t p) k := by
  obtain ⟨-, -, -, -, -, -, -, -, -, -, -, -, e0, e1, -⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 128 + 1 * k.val = k.val; omega

theorem emb7 (t : Fin cfg0.N) (p : Fin 4000) (k : Fin 128) :
    ((cfg0.win 7).blk t).view.emb (ix2 p k) = ix2 (rowAt t p) k := by
  obtain ⟨-, -, -, -, -, -, -, -, -, -, -, -, -, -, e0, e1⟩ := idx_facts t
  funext a; apply Fin.ext
  match a with
  | ⟨0, _⟩ => show win0_7.index t (0 : Fin 2) * 4000 + 1 * p.val = t.val * 4000 + p.val; omega
  | ⟨1, _⟩ => show win0_7.index t (1 : Fin 2) * 128 + 1 * k.val = k.val; omega

/-! ## The blocks' entries are the arrays' -/

theorem blk0 (c : Dev nD) (t : Fin cfg0.N) (p : Fin 4000) (k : Fin 128) :
    iblk0 V c 0 t (ix2 p k) = V c main_arg0 (ix2 (rowAt t p) k) := by
  show V c main_arg0 (((cfg0.win 0).blk t).view.emb (ix2 p k)) = _
  rw [emb0]

theorem blk1 (c : Dev nD) (t : Fin cfg0.N) (p : Fin 4000) (k : Fin 128) :
    iblk0 V c 1 t (ix2 p k) = V c main_v18 (ix2 (rowAt t p) k) := by
  show V c main_v18 (((cfg0.win 1).blk t).view.emb (ix2 p k)) = _
  rw [emb1]

theorem blk2 (c : Dev nD) (t : Fin cfg0.N) (p : Fin 4000) :
    iblk0 V c 2 t (ix2 p (0 : Fin 1)) = V c main_v8 (ix2 (rowAt t p) (0 : Fin 1)) := by
  show V c main_v8 (((cfg0.win 2).blk t).view.emb (ix2 p (0 : Fin 1))) = _
  rw [emb2]

theorem blk3 (c : Dev nD) (t : Fin cfg0.N) (k q : Fin 128) :
    iblk0 V c 3 t (ix2 k q) = V c main_arg3 (ix2 k q) := by
  show V c main_arg3 (((cfg0.win 3).blk t).view.emb (ix2 k q)) = _
  rw [emb3]

theorem blk4 (c : Dev nD) (t : Fin cfg0.N) (k q : Fin 128) :
    iblk0 V c 4 t (ix2 k q) = V c main_arg4 (ix2 k q) := by
  show V c main_arg4 (((cfg0.win 4).blk t).view.emb (ix2 k q)) = _
  rw [emb4]

theorem blk5 (c : Dev nD) (t : Fin cfg0.N) (q : Fin 128) :
    iblk0 V c 5 t (ix2 (0 : Fin 1) q) = V c main_v19 (ix2 (0 : Fin 1) q) := by
  show V c main_v19 (((cfg0.win 5).blk t).view.emb (ix2 (0 : Fin 1) q)) = _
  rw [emb5]

theorem blk6 (c : Dev nD) (t : Fin cfg0.N) (p : Fin 4000) (k : Fin 128) :
    iblk0 V c 6 t (ix2 p k) = V c main_arg9 (ix2 (rowAt t p) k) := by
  show V c main_arg9 (((cfg0.win 6).blk t).view.emb (ix2 p k)) = _
  rw [emb6]

/-! ## What a point writes back, the cover, the array -/

/-- What point `t` writes back is block `t` of the first layer of the arrays. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S4000x128) hz, View.ld_unit_zero (S := S128x128) hz,
    View.ld_unit_zero (S := S4000x1) hz, View.ld_unit_zero (S := S1x128) hz]
  rw [Payload.pay0_eq]
  funext j
  obtain ⟨p, q, rfl⟩ : ∃ (p : Fin 4000) (q : Fin 128), j = ix2 p q := ⟨j 0, j 1, eq_ix2 j⟩
  show reluDrop (layerScaled (iblk0 V c 0 t) (iblk0 V c 1 t) (iblk0 V c 2 t) (iblk0 V c 3 t) (iblk0 V c 4 t)
      (iblk0 V c 5 t)) (iblk0 V c 6 t) (ix2 p q) = G V c (((cfg0.win 7).blk t).view.emb (ix2 p q))
  rw [emb7]
  exact reluDrop_block _ _ _ _ p (rowAt t p) q
    (layerScaled_block _ _ _ _ _ _ _ _ _ _ _ _ p (rowAt t p) q (blk0 V c t p) (blk1 V c t p) (blk2 V c t p)
      (fun k => blk3 V c t k q) (fun k => blk4 V c t k q) (blk5 V c t q))
    (blk6 V c t p q)

/-- An index of the output array is in point `t`'s block iff each coordinate is in the block's range. -/
theorem mem_blk (t : Fin cfg0.N) (i : S100000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v20).slice (win0_7.rect t)).set ↔ _
  rw [View.set_slice_whole, Rect.mem_set_unit]
  exact Iff.rfl

/-- Row `r` of the output is written at point `r / 4000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ =>
    show win0_7.index t (0 : Fin 2) * 4000 ≤ (i 0).val ∧ (i 0).val < win0_7.index t (0 : Fin 2) * 4000 + 4000
    omega
  | ⟨1, _⟩ =>
    show win0_7.index t (1 : Fin 2) * 128 ≤ (i 1).val ∧ (i 1).val < win0_7.index t (1 : Fin 2) * 128 + 128
    omega

/-- The output array after the region: the first layer of the arrays the windows read. -/
theorem final (c : Dev nD) : (dat0 V c).arrAt 7 cfg0.N = G V c :=
  (dat0 V c).arrAt_eq_of_cover 7 (G V c) (fun t _ => flushed_eq V c t) cover

end Cert.Sage.Layer1

end
-- ==== Proof.Layer2.lean ====
/-
  The second region, from any contents of the buffers at its entry: the output array ends holding the layer in
  the kernel's arrangement of the arrays its windows read. Point `t` of the 25 reads rows
  `4000·t … 4000·t + 3999` of the hidden features, of their neighbour sums and of the scaling column, the whole
  weight matrices and the bias row, and writes the same rows of the output; the 25 row blocks cover the output.
-/
import proofs.«112854_j6193342841309_2_alg».proof.Proof.Gen.KernelIdeal.Frame
import proofs.«112854_j6193342841309_2_alg».proof.Proof.Payload
import proofs.«112854_j6193342841309_2_alg».proof.Proof.BlockCongr
import Idealize.ShloMosaic.Lib.Pipeline.Value

set_option maxRecDepth 16384

noncomputable section

namespace Cert.Sage.Layer2

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: the second layer of the arrays the windows read. -/
abbrev G (c : Dev nD) : Mat 100000 128 :=
  layerScaled (V c main_v20) (V c main_v30) (V c main_v8) (V c main_arg6) (V c main_arg7) (V c main_v31)

/-- The printed index maps over the grid: the row-tiled windows are at block row `t`, the whole-array windows
    at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 25 := lt_of_lt_of_eq t.isLt N_1

/-- The row of the whole arrays that row `p` of point `t`'s blocks sits at. -/
def rowAt (t : Fin cfg1.N) (p : Fin 4000) : Fin 100000 := ⟨t.val * 4000 + p.val, by have := point_lt t; omega⟩

/-! ## Where a block's entries sit in the arrays -/

theorem emb0 (t : Fin cfg1.N) (p : Fin 4000) (k : Fin 128) :
    ((cfg1.win 0).blk t).view.emb (ix2 p k) = ix2 (rowAt t p) k := by
  obtain ⟨e0, e1, -⟩ := idx_facts t
  funext a; apply Fin.ext
  match a with
  | ⟨0, _⟩ => show win1_0.index t (0 : Fin 2) * 4000 + 1 * p.val = t.val * 4000 + p.val; omega
  | ⟨1, _⟩ => show win1_0.index t (1 : Fin 2) * 128 + 1 * k.val = k.val; omega

theorem emb1 (t : Fin cfg1.N) (p : Fin 4000) (k : Fin 128) :
    ((cfg1.win 1).blk t).view.emb (ix2 p k) = ix2 (rowAt t p) k := by
  obtain ⟨-, -, e0, e1, -⟩ := idx_facts t
  funext a; apply Fin.ext
  match a with
  | ⟨0, _⟩ => show win1_1.index t (0 : Fin 2) * 4000 + 1 * p.val = t.val * 4000 + p.val; omega
  | ⟨1, _⟩ => show win1_1.index t (1 : Fin 2) * 128 + 1 * k.val = k.val; omega

theorem emb2 (t : Fin cfg1.N) (p : Fin 4000) :
    ((cfg1.win 2).blk t).view.emb (ix2 p (0 : Fin 1)) = ix2 (rowAt t p) (0 : Fin 1) := by
  obtain ⟨-, -, -, -, e0, e1, -⟩ := idx_facts t
  funext a; apply Fin.ext
  match a with
  | ⟨0, _⟩ => show win1_2.index t (0 : Fin 2) * 4000 + 1 * p.val = t.val * 4000 + p.val; omega
  | ⟨1, _⟩ => show win1_2.index t (1 : Fin 2) * 1 + 1 * 0 = 0; omega

theorem emb3 (t : Fin cfg1.N) (k q : Fin 128) : ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb4 (t : Fin cfg1.N) (k q : Fin 128) : ((cfg1.win 4).blk t).view.emb (ix2 k q) = ix2 k q := by
  obtain ⟨-, -, -, -, -, -, -, -, e0, e1, -⟩ := idx_facts t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem emb5 (t : Fin cfg1.N) (q : Fin 128) :
    ((cfg1.win 5).blk t).view.emb (ix2 (0 : Fin 1) q) = ix2 (0 : Fin 1) q := by
  obtain ⟨-, -, -, -, -, -, -, -, -, -, e0, e1, -⟩ := idx_facts t
  funext a; apply Fin.ext
  match a with
  | ⟨0, _⟩ => show win1_5.index t (0 : Fin 2) * 1 + 1 * 0 = 0; omega
  | ⟨1, _⟩ => show win1_5.index t (1 : Fin 2) * 128 + 1 * q.val = q.val; omega

theorem embOut (t : Fin cfg1.N) (p : Fin 4000) (k : Fin 128) :
    ((cfg1.win 6).blk t).view.emb (ix2 p k) = ix2 (rowAt t p) k := by
  obtain ⟨-, -, -, -, -, -, -, -, -, -, -, -, e0, e1⟩ := idx_facts t
  funext a; apply Fin.ext
  match a with
  | ⟨0, _⟩ => show win1_6.index t (0 : Fin 2) * 4000 + 1 * p.val = t.val * 4000 + p.val; omega
  | ⟨1, _⟩ => show win1_6.index t (1 : Fin 2) * 128 + 1 * k.val = k.val; omega

/-! ## The blocks' entries are the arrays' -/

theorem blk0 (c : Dev nD) (t : Fin cfg1.N) (p : Fin 4000) (k : Fin 128) :
    iblk1 V c 0 t (ix2 p k) = V c main_v20 (ix2 (rowAt t p) k) := by
  show V c main_v20 (((cfg1.win 0).blk t).view.emb (ix2 p k)) = _
  rw [emb0]

theorem blk1 (c : Dev nD) (t : Fin cfg1.N) (p : Fin 4000) (k : Fin 128) :
    iblk1 V c 1 t (ix2 p k) = V c main_v30 (ix2 (rowAt t p) k) := by
  show V c main_v30 (((cfg1.win 1).blk t).view.emb (ix2 p k)) = _
  rw [emb1]

theorem blk2 (c : Dev nD) (t : Fin cfg1.N) (p : Fin 4000) :
    iblk1 V c 2 t (ix2 p (0 : Fin 1)) = V c main_v8 (ix2 (rowAt t p) (0 : Fin 1)) := by
  show V c main_v8 (((cfg1.win 2).blk t).view.emb (ix2 p (0 : Fin 1))) = _
  rw [emb2]

theorem blk3 (c : Dev nD) (t : Fin cfg1.N) (k q : Fin 128) :
    iblk1 V c 3 t (ix2 k q) = V c main_arg6 (ix2 k q) := by
  show V c main_arg6 (((cfg1.win 3).blk t).view.emb (ix2 k q)) = _
  rw [emb3]

theorem blk4 (c : Dev nD) (t : Fin cfg1.N) (k q : Fin 128) :
    iblk1 V c 4 t (ix2 k q) = V c main_arg7 (ix2 k q) := by
  show V c main_arg7 (((cfg1.win 4).blk t).view.emb (ix2 k q)) = _
  rw [emb4]

theorem blk5 (c : Dev nD) (t : Fin cfg1.N) (q : Fin 128) :
    iblk1 V c 5 t (ix2 (0 : Fin 1) q) = V c main_v31 (ix2 (0 : Fin 1) q) := by
  show V c main_v31 (((cfg1.win 5).blk t).view.emb (ix2 (0 : Fin 1) q)) = _
  rw [emb5]

/-! ## What a point writes back, the cover, the array -/

/-- What point `t` writes back is block `t` of the second layer of the arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz,
    View.ld_unit_zero (S := S4000x1) hz, View.ld_unit_zero (S := S1x128) hz]
  rw [Payload.pay1_eq]
  funext j
  obtain ⟨p, q, rfl⟩ : ∃ (p : Fin 4000) (q : Fin 128), j = ix2 p q := ⟨j 0, j 1, eq_ix2 j⟩
  show layerScaled (iblk1 V c 0 t) (iblk1 V c 1 t) (iblk1 V c 2 t) (iblk1 V c 3 t) (iblk1 V c 4 t)
      (iblk1 V c 5 t) (ix2 p q) = G V c (((cfg1.win 6).blk t).view.emb (ix2 p q))
  rw [embOut]
  exact layerScaled_block _ _ _ _ _ _ _ _ _ _ _ _ p (rowAt t p) q (blk0 V c t p) (blk1 V c t p) (blk2 V c t p)
    (fun k => blk3 V c t k q) (fun k => blk4 V c t k q) (blk5 V c t q)

/-- An index of the output array is in point `t`'s block iff each coordinate is in the block's range. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v32).slice (win1_6.rect t)).set ↔ _
  rw [View.set_slice_whole, Rect.mem_set_unit]
  exact Iff.rfl

/-- Row `r` of the output is written at point `r / 4000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- The output array after the region: the second layer of the arrays the windows read. -/
theorem final (c : Dev nD) : (dat1 V c).arrAt 6 cfg1.N = G V c :=
  (dat1 V c).arrAt_eq_of_cover 6 (G V c) (fun t _ => flushed_eq V c t) cover

end Cert.Sage.Layer2

end
-- ==== Proof.HostShared.lean ====
/-
  The host-side pieces both programs compute with the same operations: the sum, for every node, of the rows
  of a feature matrix at the sources of its incoming edges (a row gather followed by a scatter-add into zeros);
  the in-degree (a scatter-add of ones) clamped below by one; and the two layouts the kernel is handed — the
  reciprocal of the clamped degree as a column, and a bias vector as a one-row matrix.
-/
import proofs.«112854_j6193342841309_2_alg».proof.Proof.Gen.KernelIdeal
import Idealize.ShloMosaic.PureOps.Ideal

noncomputable section

namespace Cert.Sage

open Cert.KernelIdeal Cert.KernelIdeal.Gen Idealize.ShloMosaic

/-- For every node the sum over its incoming edges of the source node's row of `h`; a negative source index
    counts from the end. -/
def neighbourSum (h : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The number of incoming edges of every node, clamped below by one. -/
def degreeClamped (dst : IVec S1600000 32) : FVec Ideal S100000 .f32 :=
  maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped degree, laid out as a column. -/
def invDegreeColumn (dst : IVec S1600000 32) : FVec Ideal S100000x1 .f32 :=
  shapeCast S100000x1
    (Host.divf (F := Ideal) (broadcastInDim S100000 ![] bcast_S_S100000 (constant (F := Ideal) S_ .f32 0x3F800000#32))
      (degreeClamped dst))
    shapeCasts_S100000_S100000x1

/-- A bias vector laid out as a one-row matrix. -/
def biasRow (b : FVec Ideal S128 .f32) : FVec Ideal S1x128 .f32 := shapeCast S1x128 b shapeCasts_S128_S1x128

end Cert.Sage

end
-- ==== Proof.KernelHost.lean ====
/-
  The kernel program's two stretches of host operations, from any contents of the buffers: what each leaves in
  the buffers the regions read — the neighbour sums, the reciprocal-degree column, the bias row — and which
  buffers it leaves alone.
-/
import proofs.«112854_j6193342841309_2_alg».proof.Proof.Gen.KernelIdeal.Launch
import proofs.«112854_j6193342841309_2_alg».proof.Proof.HostShared
import Idealize.ShloMosaic.Lib.StableHlo.Run

set_option maxRecDepth 16384

noncomputable section

namespace Cert.Sage.KernelHost

open Cert.KernelIdeal Cert.KernelIdeal.Gen Cert.Sage
open Idealize.ShloMosaic Idealize.ShloMosaic.TcCoe Idealize.SL.Sem Idealize.ShloMosaic.StableHlo

variable (W : Valuation τ sig (Elt Ideal))

/-! ## The stretch before the first region -/

theorem pre0_v18 : after (hostOps0 (F := Ideal)) W (Proc.devRef .tc main_v18)
    = neighbourSum (W (Proc.devRef .tc main_arg0)) (W (Proc.devRef .tc main_arg1)) (W (Proc.devRef .tc main_arg2)) := by
  after_results_simp <;> rfl

theorem pre0_v8 : after (hostOps0 (F := Ideal)) W (Proc.devRef .tc main_v8)
    = invDegreeColumn (W (Proc.devRef .tc main_arg2)) := by
  after_results_simp <;> rfl

theorem pre0_v19 : after (hostOps0 (F := Ideal)) W (Proc.devRef .tc main_v19)
    = biasRow (W (Proc.devRef .tc main_arg5)) := by
  after_results_simp <;> rfl

theorem pre0_arg0 : after (hostOps0 (F := Ideal)) W (Proc.devRef .tc main_arg0) = W (Proc.devRef .tc main_arg0) := by
  after_results_simp <;> rfl
theorem pre0_arg1 : after (hostOps0 (F := Ideal)) W (Proc.devRef .tc main_arg1) = W (Proc.devRef .tc main_arg1) := by
  after_results_simp <;> rfl
theorem pre0_arg2 : after (hostOps0 (F := Ideal)) W (Proc.devRef .tc main_arg2) = W (Proc.devRef .tc main_arg2) := by
  after_results_simp <;> rfl
theorem pre0_arg3 : after (hostOps0 (F := Ideal)) W (Proc.devRef .tc main_arg3) = W (Proc.devRef .tc main_arg3) := by
  after_results_simp <;> rfl
theorem pre0_arg4 : after (hostOps0 (F := Ideal)) W (Proc.devRef .tc main_arg4) = W (Proc.devRef .tc main_arg4) := by
  after_results_simp <;> rfl
theorem pre0_arg6 : after (hostOps0 (F := Ideal)) W (Proc.devRef .tc main_arg6) = W (Proc.devRef .tc main_arg6) := by
  after_results_simp <;> rfl
theorem pre0_arg7 : after (hostOps0 (F := Ideal)) W (Proc.devRef .tc main_arg7) = W (Proc.devRef .tc main_arg7) := by
  after_results_simp <;> rfl
theorem pre0_arg8 : after (hostOps0 (F := Ideal)) W (Proc.devRef .tc main_arg8) = W (Proc.devRef .tc main_arg8) := by
  after_results_simp <;> rfl
theorem pre0_arg9 : after (hostOps0 (F := Ideal)) W (Proc.devRef .tc main_arg9) = W (Proc.devRef .tc main_arg9) := by
  after_results_simp <;> rfl

/-! ## The stretch between the regions -/

theorem pre1_v30 : after (hostOps1 (F := Ideal)) W (Proc.devRef .tc main_v30)
    = neighbourSum (W (Proc.devRef .tc main_v20)) (W (Proc.devRef .tc main_arg1)) (W (Proc.devRef .tc main_arg2)) := by
  after_results_simp <;> rfl

theorem pre1_v31 : after (hostOps1 (F := Ideal)) W (Proc.devRef .tc main_v31)
    = biasRow (W (Proc.devRef .tc main_arg8)) := by
  after_results_simp <;> rfl

theorem pre1_v20 : after (hostOps1 (F := Ideal)) W (Proc.devRef .tc main_v20) = W (Proc.devRef .tc main_v20) := by
  after_results_simp <;> rfl
theorem pre1_v8 : after (hostOps1 (F := Ideal)) W (Proc.devRef .tc main_v8) = W (Proc.devRef .tc main_v8) := by
  after_results_simp <;> rfl
theorem pre1_arg6 : after (hostOps1 (F := Ideal)) W (Proc.devRef .tc main_arg6) = W (Proc.devRef .tc main_arg6) := by
  after_results_simp <;> rfl
theorem pre1_arg7 : after (hostOps1 (F := Ideal)) W (Proc.devRef .tc main_arg7) = W (Proc.devRef .tc main_arg7) := by
  after_results_simp <;> rfl

end Cert.Sage.KernelHost

end
-- ==== Proof.KernelValue.lean ====
/-
  The idealized kernel program's result as one function of the argument arrays. The buffers at the first
  region's entry hold the arguments, the neighbour sums of the features, the reciprocal-degree column and the
  first bias row; the region leaves the hidden features in its output; the stretch between the regions
  computes their neighbour sums and the second bias row and touches nothing else the second region reads; the
  second region leaves the second layer of all that in the result.
-/
import proofs.«112854_j6193342841309_2_alg».proof.Proof.Gen.KernelIdeal.Frame
import proofs.«112854_j6193342841309_2_alg».proof.Proof.Layer1
import proofs.«112854_j6193342841309_2_alg».proof.Proof.Layer2
import proofs.«112854_j6193342841309_2_alg».proof.Proof.KernelHost

set_option maxRecDepth 16384

noncomputable section

namespace Cert.Sage.KernelValue

open Cert.KernelIdeal Cert.KernelIdeal.Gen Cert.Sage Cert.Sage.KernelHost
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The argument arrays at launch, on core `c`. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)

/-- The hidden features as the kernel computes them. -/
def hiddenK (c : Dev nD) : Mat 100000 128 :=
  reluDrop (layerScaled (A0 m c) (neighbourSum (A0 m c) (A1 m c) (A2 m c)) (invDegreeColumn (A2 m c)) (A3 m c)
    (A4 m c) (biasRow (A5 m c))) (A9 m c)

/-- The result as the kernel computes it. -/
def resultK (c : Dev nD) : Mat 100000 128 :=
  layerScaled (hiddenK m c) (neighbourSum (hiddenK m c) (A1 m c) (A2 m c)) (invDegreeColumn (A2 m c)) (A6 m c)
    (A7 m c) (biasRow (A8 m c))

/-! ## The first region's entry -/

theorem V1_arg0 (c : Dev nD) : V1 m ρ c main_arg0 = A0 m c := pre0_arg0 (W0 m ρ c)
theorem V1_arg3 (c : Dev nD) : V1 m ρ c main_arg3 = A3 m c := pre0_arg3 (W0 m ρ c)
theorem V1_arg4 (c : Dev nD) : V1 m ρ c main_arg4 = A4 m c := pre0_arg4 (W0 m ρ c)
theorem V1_arg9 (c : Dev nD) : V1 m ρ c main_arg9 = A9 m c := pre0_arg9 (W0 m ρ c)
theorem V1_v18 (c : Dev nD) : V1 m ρ c main_v18 = neighbourSum (A0 m c) (A1 m c) (A2 m c) := pre0_v18 (W0 m ρ c)
theorem V1_v8 (c : Dev nD) : V1 m ρ c main_v8 = invDegreeColumn (A2 m c) := pre0_v8 (W0 m ρ c)
theorem V1_v19 (c : Dev nD) : V1 m ρ c main_v19 = biasRow (A5 m c) := pre0_v19 (W0 m ρ c)

theorem layer1_entry (c : Dev nD) : Layer1.G (V1 m ρ) c = hiddenK m c := by
  show reluDrop (layerScaled (V1 m ρ c main_arg0) (V1 m ρ c main_v18) (V1 m ρ c main_v8) (V1 m ρ c main_arg3)
    (V1 m ρ c main_arg4) (V1 m ρ c main_v19)) (V1 m ρ c main_arg9) = _
  rw [V1_arg0, V1_v18, V1_v8, V1_arg3, V1_arg4, V1_v19, V1_arg9]
  rfl

/-! ## The first region's exit -/

theorem W2_v20 (c : Dev nD) : W2 m ρ c (Proc.devRef .tc main_v20) = hiddenK m c :=
  (W2_arr m ρ c 7).trans ((Layer1.final (V1 m ρ) c).trans (layer1_entry m ρ c))
theorem W2_v8 (c : Dev nD) : W2 m ρ c (Proc.devRef .tc main_v8) = invDegreeColumn (A2 m c) :=
  (W2_arr m ρ c 2).trans (((dat0 (V1 m ρ) c).arrAt_in 2 rfl _).trans ((A_eq0 (V1 m ρ) c 2).trans (V1_v8 m ρ c)))
theorem W2_arg1 (c : Dev nD) : W2 m ρ c (Proc.devRef .tc main_arg1) = A1 m c :=
  (W2_of_ne m ρ c main_arg1 (by decide)).trans (pre0_arg1 (W0 m ρ c))
theorem W2_arg2 (c : Dev nD) : W2 m ρ c (Proc.devRef .tc main_arg2) = A2 m c :=
  (W2_of_ne m ρ c main_arg2 (by decide)).trans (pre0_arg2 (W0 m ρ c))
theorem W2_arg6 (c : Dev nD) : W2 m ρ c (Proc.devRef .tc main_arg6) = A6 m c :=
  (W2_of_ne m ρ c main_arg6 (by decide)).trans (pre0_arg6 (W0 m ρ c))
theorem W2_arg7 (c : Dev nD) : W2 m ρ c (Proc.devRef .tc main_arg7) = A7 m c :=
  (W2_of_ne m ρ c main_arg7 (by decide)).trans (pre0_arg7 (W0 m ρ c))
theorem W2_arg8 (c : Dev nD) : W2 m ρ c (Proc.devRef .tc main_arg8) = A8 m c :=
  (W2_of_ne m ρ c main_arg8 (by decide)).trans (pre0_arg8 (W0 m ρ c))

/-! ## The second region's entry -/

theorem V3_v20 (c : Dev nD) : V3 m ρ c main_v20 = hiddenK m c := (pre1_v20 (W2 m ρ c)).trans (W2_v20 m ρ c)
theorem V3_v8 (c : Dev nD) : V3 m ρ c main_v8 = invDegreeColumn (A2 m c) := (pre1_v8 (W2 m ρ c)).trans (W2_v8 m ρ c)
theorem V3_arg6 (c : Dev nD) : V3 m ρ c main_arg6 = A6 m c := (pre1_arg6 (W2 m ρ c)).trans (W2_arg6 m ρ c)
theorem V3_arg7 (c : Dev nD) : V3 m ρ c main_arg7 = A7 m c := (pre1_arg7 (W2 m ρ c)).trans (W2_arg7 m ρ c)
theorem V3_v30 (c : Dev nD) : V3 m ρ c main_v30 = neighbourSum (hiddenK m c) (A1 m c) (A2 m c) := by
  refine (pre1_v30 (W2 m ρ c)).trans ?_
  rw [W2_v20, W2_arg1, W2_arg2]
theorem V3_v31 (c : Dev nD) : V3 m ρ c main_v31 = biasRow (A8 m c) := by
  refine (pre1_v31 (W2 m ρ c)).trans ?_
  rw [W2_arg8]

/-! ## The result -/

/-- The result buffer at the last boundary is the second layer of the hidden features. -/
theorem result (c : Dev nD) : W4 m ρ c (Proc.devRef .tc main_v32) = resultK m c := by
  refine (W4_arr m ρ c 6).trans ((Layer2.final (V3 m ρ) c).trans ?_)
  show layerScaled (V3 m ρ c main_v20) (V3 m ρ c main_v30) (V3 m ρ c main_v8) (V3 m ρ c main_arg6)
    (V3 m ρ c main_arg7) (V3 m ρ c main_v31) = _
  rw [V3_v20, V3_v30, V3_v8, V3_arg6, V3_arg7, V3_v31]
  rfl

end Cert.Sage.KernelValue

end
-- ==== Proof.LibUnitAxis.lean ====
/-
  A vector laid out as a column: a shape cast `[a] → [a, 1]` read at `(i, u)` is the vector's entry `i`,
  whatever the unit coordinate `u` (both sit at row-major position `i`).
-/
import Idealize.ShloMosaic.Lib.ValueIdx
import Idealize.ShloMosaic.Lib.Pipeline.Value

namespace Cert.Lib.UnitAxis

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.UnitAxis
-- ==== Proof.Bridge.lean ====
/-
  The kernel's arrangement of the two layers equals the reference's. The column the kernel is handed holds
  `1 / d(p)` with `d(p)` the clamped in-degree, which is at least one because it is a maximum with one; the
  one-row matrix holds the bias. So each layer in the kernel's arrangement is the layer in the reference's
  (the law of the scaled dot product), first for the hidden features and then, over equal hidden features and
  hence equal neighbour sums, for the result. No finiteness of the inputs is used.
-/
import proofs.«112854_j6193342841309_2_alg».proof.Proof.Spec
import proofs.«112854_j6193342841309_2_alg».proof.Proof.HostShared
import proofs.«112854_j6193342841309_2_alg».proof.Proof.LibUnitAxis
import Idealize.ShloMosaic.Lib.ValueIdx
import Idealize.ShloMosaic.Lib.ValueLayout
import Idealize.ShloMosaic.Lib.Pipeline.Value
import Idealize.ShloMosaic.PureOps.IdealRules

noncomputable section

namespace Cert.Sage

open Cert.KernelIdeal Cert.KernelIdeal.Gen Idealize.ShloMosaic Idealize.ShloMosaic.ValueIdx

/-- The word of `1.0` denotes the extended real one. -/
theorem ofBits_one : Ideal.ofBits .f32 0x3F800000#32 = 1 := IdealRules.sign_bit.ideal_onePat .f32

/-- The vector of ones, at an entry. -/
theorem ones_apply (i : S100000.Idx) :
    broadcastInDim S100000 ![] bcast_S_S100000 (constant (F := Ideal) S_ .f32 0x3F800000#32) i = 1 := by
  rw [broadcastInDim_apply _ bcast_S_S100000 _ i (fun a => a.elim0) (fun a => a.elim0)]
  exact ofBits_one

/-- The clamped degree is at least one. -/
theorem one_le_degreeClamped (dst : IVec S1600000 32) (p : Fin 100000) : 1 ≤ degreeClamped dst (ix1 p) := by
  unfold degreeClamped
  rw [maximumf_apply, ones_apply]
  exact le_max_right _ _

/-- The host's quotient of two arrays, at an entry. -/
theorem hostDivf_apply {s : Shape} (x y : FVec Ideal s .f32) (i : s.Idx) :
    Host.divf (F := Ideal) x y i = Ideal.div (x i) (y i) := rfl

/-- The column holds the reciprocal of the clamped degree. -/
theorem invDegreeColumn_apply (dst : IVec S1600000 32) (p : Fin 100000) :
    invDegreeColumn dst (ix2 p 0) = Ideal.div 1 (degreeClamped dst (ix1 p)) := by
  unfold invDegreeColumn
  rw [Cert.Lib.UnitAxis.shapeCast_a_a1_apply, hostDivf_apply, ones_apply]

/-- The one-row matrix holds the bias. -/
theorem biasRow_apply (b : FVec Ideal S128 .f32) (q : Fin 128) : biasRow b (ix2 0 q) = b (ix1 q) := by
  unfold biasRow
  exact shapeCast_a_1a_apply b shapeCasts_S128_S1x128 0 q

/-- One layer: the kernel's arrangement over the column and the bias row is the reference's over the clamped
    degree and the bias. -/
theorem layer_bridge (x ns : Mat 100000 128) (dst : IVec S1600000 32) (Ws Wn : Mat 128 128) (b : Vc 128) :
    layerScaled x ns (invDegreeColumn dst) Ws Wn (biasRow b) = layerMean x ns (degreeClamped dst) Ws Wn b :=
  layerScaled_eq_layerMean x ns (invDegreeColumn dst) (degreeClamped dst) Ws Wn (biasRow b) b
    (invDegreeColumn_apply dst) (one_le_degreeClamped dst) (biasRow_apply b)

/-- The hidden features: the first layer of the arguments in the reference's arrangement, activated. -/
def hidden (x0 : Mat 100000 128) (src dst : IVec S1600000 32) (Ws Wn : Mat 128 128) (b : Vc 128) (u : Mat 100000 128) :
    Mat 100000 128 :=
  reluDrop (layerMean x0 (neighbourSum x0 src dst) (degreeClamped dst) Ws Wn b) u

/-- Both layers: the kernel's arrangement of the whole computation is the reference's. -/
theorem result_bridge (x0 : Mat 100000 128) (src dst : IVec S1600000 32) (W3 W4 : Mat 128 128) (b5 : Vc 128)
    (W6 W7 : Mat 128 128) (b8 : Vc 128) (u : Mat 100000 128) :
    layerScaled (reluDrop (layerScaled x0 (neighbourSum x0 src dst) (invDegreeColumn dst) W3 W4 (biasRow b5)) u)
        (neighbourSum (reluDrop (layerScaled x0 (neighbourSum x0 src dst) (invDegreeColumn dst) W3 W4 (biasRow b5)) u)
          src dst)
        (invDegreeColumn dst) W6 W7 (biasRow b8)
      = layerMean (hidden x0 src dst W3 W4 b5 u) (neighbourSum (hidden x0 src dst W3 W4 b5 u) src dst)
          (degreeClamped dst) W6 W7 b8 := by
  rw [layer_bridge, layer_bridge]
  rfl

end Cert.Sage

end
-- ==== Proof.RefValue.lean ====
/-
  The reference program's result, read one operation at a time: two GraphSAGE layers in the reference's
  arrangement (the neighbour sums divided by the clamped degree before the product), ReLU and the dropout mask
  between them, over the shared host-side pieces.
-/
import proofs.«112854_j6193342841309_2_alg».proof.Proof.Gen.ReferenceIdeal.Read
import proofs.«112854_j6193342841309_2_alg».proof.Proof.Spec
import proofs.«112854_j6193342841309_2_alg».proof.Proof.HostShared
import proofs.«112854_j6193342841309_2_alg».proof.Proof.Bridge

set_option maxRecDepth 16384

noncomputable section

namespace Cert.Sage.RefValue

open Cert.ReferenceIdeal Cert.ReferenceIdeal.Gen Cert.ReferenceIdeal.Read Cert.Sage
open Idealize.ShloMosaic Idealize.ShloMosaic.ValueIdx

/-! ## The indices the reference's layout operations read at, by coordinates -/

theorem lidx19 (p : Fin 100000) (q k : Fin 128) : lidx_main_v19 (ix2 p q) k = ix2 p k :=
  funext fun a => Fin.ext (by match a with | ⟨0, _⟩ => rfl | ⟨1, _⟩ => rfl)
theorem ridx19 (p : Fin 100000) (q k : Fin 128) : ridx_main_v19 (ix2 p q) k = ix2 k q :=
  funext fun a => Fin.ext (by match a with | ⟨0, _⟩ => rfl | ⟨1, _⟩ => rfl)
theorem lidx20 (p : Fin 100000) (q k : Fin 128) : lidx_main_v20 (ix2 p q) k = ix2 p k :=
  funext fun a => Fin.ext (by match a with | ⟨0, _⟩ => rfl | ⟨1, _⟩ => rfl)
theorem ridx20 (p : Fin 100000) (q k : Fin 128) : ridx_main_v20 (ix2 p q) k = ix2 k q :=
  funext fun a => Fin.ext (by match a with | ⟨0, _⟩ => rfl | ⟨1, _⟩ => rfl)
theorem lidx49 (p : Fin 100000) (q k : Fin 128) : lidx_main_v49 (ix2 p q) k = ix2 p k :=
  funext fun a => Fin.ext (by match a with | ⟨0, _⟩ => rfl | ⟨1, _⟩ => rfl)
theorem ridx49 (p : Fin 100000) (q k : Fin 128) : ridx_main_v49 (ix2 p q) k = ix2 k q :=
  funext fun a => Fin.ext (by match a with | ⟨0, _⟩ => rfl | ⟨1, _⟩ => rfl)
theorem lidx50 (p : Fin 100000) (q k : Fin 128) : lidx_main_v50 (ix2 p q) k = ix2 p k :=
  funext fun a => Fin.ext (by match a with | ⟨0, _⟩ => rfl | ⟨1, _⟩ => rfl)
theorem ridx50 (p : Fin 100000) (q k : Fin 128) : ridx_main_v50 (ix2 p q) k = ix2 k q :=
  funext fun a => Fin.ext (by match a with | ⟨0, _⟩ => rfl | ⟨1, _⟩ => rfl)
theorem deg17 (p : Fin 100000) (k : Fin 128) : idx_main_v16 (idx_main_v17 (ix2 p k)) = ix1 p :=
  funext fun a => Fin.ext (by match a with | ⟨0, _⟩ => rfl)
theorem deg47 (p : Fin 100000) (k : Fin 128) : idx_main_v46 (idx_main_v47 (ix2 p k)) = ix1 p :=
  funext fun a => Fin.ext (by match a with | ⟨0, _⟩ => rfl)
theorem bias23 (p : Fin 100000) (q : Fin 128) : idx_main_v22 (idx_main_v23 (ix2 p q)) = ix1 q :=
  funext fun a => Fin.ext (by match a with | ⟨0, _⟩ => rfl)
theorem bias53 (p : Fin 100000) (q : Fin 128) : idx_main_v52 (idx_main_v53 (ix2 p q)) = ix1 q :=
  funext fun a => Fin.ext (by match a with | ⟨0, _⟩ => rfl)

/-! ## The two layers and the activation between them -/

/-- Three numbers that are the layer's two dot products and bias entry add up to the layer's entry. -/
theorem entryMean_of_reads (X NS : Mat 100000 128) (Dv : Vc 100000) (Ws Wn : Mat 128 128) (b : Vc 128) (p : Fin 100000)
    (q : Fin 128) (s1 s2 s3 : EReal) (h1 : s1 = ∑ k : Fin 128, X (ix2 p k) * Ws (ix2 k q))
    (h2 : s2 = ∑ k : Fin 128, Ideal.div (NS (ix2 p k)) (Dv (ix1 p)) * Wn (ix2 k q)) (h3 : s3 = b (ix1 q)) :
    s1 + s2 + s3 = entryMean X NS Dv Ws Wn b p q := by
  subst h1 h2 h3
  rfl

/-- The first layer's neighbour sums divided by the clamped degree, at an entry. -/
theorem mean1_read (x0 : (⟨S100000x128, .f32⟩ : BufTy).Contents (Elt Ideal)) (x1 x2 : (⟨S1600000, .i32⟩ : BufTy).Contents (Elt Ideal)) (p : Fin 100000) (k : Fin 128) :
    val_main_v18 (F := Ideal) x0 x1 x2 (ix2 p k)
      = Ideal.div (val_main_v9 (F := Ideal) x0 x1 x2 (ix2 p k)) (val_main_v15 (F := Ideal) x2 (ix1 p)) := by
  rw [val_main_v18_apply, val_main_v17_apply, val_main_v16_apply, deg17]
  generalize val_main_v9 (F := Ideal) x0 x1 x2 = ns
  generalize val_main_v15 (F := Ideal) x2 = d
  rfl

/-- The first layer before its activation: the layer of the features, their neighbour sums and the clamped
    degree. -/
theorem layer1_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v24 (F := Ideal) x0 x1 x2 x3 x4 x5
      = layerMean x0 (val_main_v9 (F := Ideal) x0 x1 x2) (val_main_v15 (F := Ideal) x2) x3 x4 x5 := by
  funext i
  obtain ⟨p, q, rfl⟩ : ∃ (p : Fin 100000) (q : Fin 128), i = ix2 p q := ⟨i 0, i 1, eq_ix2 i⟩
  rw [val_main_v24_apply, val_main_v21_apply, val_main_v19_apply, val_main_v20_apply, val_main_v23_apply,
    val_main_v22_apply, Ideal.addf_def, Ideal.addf_def]
  exact entryMean_of_reads x0 (val_main_v9 (F := Ideal) x0 x1 x2) (val_main_v15 (F := Ideal) x2) x3 x4 x5 p q _ _ _
    (Finset.sum_congr rfl fun k _ => by rw [lidx19, ridx19])
    (Finset.sum_congr rfl fun k _ => by rw [lidx20, ridx20, mean1_read])
    (by rw [bias23])

/-- The activation: ReLU, then the dropout mask of the uniform draws. -/
theorem hidden_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x9 : (⟨S100000x128, .f32⟩ : BufTy).Contents (Elt Ideal)) :
    val_main_v29 (F := Ideal) x0 x1 x2 x3 x4 x5 x9 = reluDrop (val_main_v24 (F := Ideal) x0 x1 x2 x3 x4 x5) x9 := by
  funext i
  rw [val_main_v29_apply, val_main_v25_apply, val_main_v28_apply, val_main_v27_apply, val_main_call0_v0_apply,
    val_main_call0_cst_apply, val_main_v26_apply, val_main_cst_4_apply, val_main_call1_v0_apply,
    val_main_cst_5_apply, val_main_call1_v1_apply, val_main_cst_6_apply]
  generalize val_main_v24 (F := Ideal) x0 x1 x2 x3 x4 x5 = y
  rfl

/-- The second layer's neighbour sums divided by the clamped degree, at an entry. -/
theorem mean2_read (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x9 : (⟨S100000x128, .f32⟩ : BufTy).Contents (Elt Ideal)) (p : Fin 100000) (k : Fin 128) :
    val_main_v48 (F := Ideal) x0 x1 x2 x3 x4 x5 x9 (ix2 p k)
      = Ideal.div (val_main_v39 (F := Ideal) x0 x1 x2 x3 x4 x5 x9 (ix2 p k)) (val_main_v45 (F := Ideal) x2 (ix1 p)) := by
  rw [val_main_v48_apply, val_main_v47_apply, val_main_v46_apply, deg47]
  generalize val_main_v39 (F := Ideal) x0 x1 x2 x3 x4 x5 x9 = ns
  generalize val_main_v45 (F := Ideal) x2 = d
  rfl

/-- The second layer: the layer of the hidden features, their neighbour sums and the clamped degree. -/
theorem layer2_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S100000x128, .f32⟩ : BufTy).Contents (Elt Ideal)) :
    val_main_v54 (F := Ideal) x0 x1 x2 x3 x4 x5 x6 x7 x8 x9
      = layerMean (val_main_v29 (F := Ideal) x0 x1 x2 x3 x4 x5 x9) (val_main_v39 (F := Ideal) x0 x1 x2 x3 x4 x5 x9)
          (val_main_v45 (F := Ideal) x2) x6 x7 x8 := by
  funext i
  obtain ⟨p, q, rfl⟩ : ∃ (p : Fin 100000) (q : Fin 128), i = ix2 p q := ⟨i 0, i 1, eq_ix2 i⟩
  rw [val_main_v54_apply, val_main_v51_apply, val_main_v49_apply, val_main_v50_apply, val_main_v53_apply,
    val_main_v52_apply, Ideal.addf_def, Ideal.addf_def]
  exact entryMean_of_reads (val_main_v29 (F := Ideal) x0 x1 x2 x3 x4 x5 x9)
    (val_main_v39 (F := Ideal) x0 x1 x2 x3 x4 x5 x9) (val_main_v45 (F := Ideal) x2) x6 x7 x8 p q _ _ _
    (Finset.sum_congr rfl fun k _ => by rw [lidx49, ridx49])
    (Finset.sum_congr rfl fun k _ => by rw [lidx50, ridx50, mean2_read])
    (by rw [bias53])

/-! ## The shared host-side pieces, as the reference spells them -/

theorem sum1_eq (x0 : (⟨S100000x128, .f32⟩ : BufTy).Contents (Elt Ideal)) (x1 x2 : (⟨S1600000, .i32⟩ : BufTy).Contents (Elt Ideal)) :
    val_main_v9 (F := Ideal) x0 x1 x2 = neighbourSum x0 x1 x2 := rfl

theorem sum2_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x9 : (⟨S100000x128, .f32⟩ : BufTy).Contents (Elt Ideal)) :
    val_main_v39 (F := Ideal) x0 x1 x2 x3 x4 x5 x9
      = neighbourSum (val_main_v29 (F := Ideal) x0 x1 x2 x3 x4 x5 x9) x1 x2 := rfl

theorem deg1_eq (x2 : (⟨S1600000, .i32⟩ : BufTy).Contents (Elt Ideal)) : val_main_v15 (F := Ideal) x2 = degreeClamped x2 := rfl

theorem deg2_eq (x2 : (⟨S1600000, .i32⟩ : BufTy).Contents (Elt Ideal)) : val_main_v45 (F := Ideal) x2 = degreeClamped x2 := rfl

/-- The whole reference: the second layer of the hidden features. -/
theorem result_eq (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S100000x128, .f32⟩ : BufTy).Contents (Elt Ideal)) :
    val_main_v54 (F := Ideal) x0 x1 x2 x3 x4 x5 x6 x7 x8 x9
      = layerMean (hidden x0 x1 x2 x3 x4 x5 x9) (neighbourSum (hidden x0 x1 x2 x3 x4 x5 x9) x1 x2) (degreeClamped x2)
          x6 x7 x8 := by
  unfold hidden
  rw [layer2_eq, sum2_eq, deg2_eq, hidden_eq, layer1_eq, sum1_eq, deg1_eq]

end Cert.Sage.RefValue

end
-- ==== Proof.lean ====
/-
  Two GraphSAGE layers with the mean aggregator, ReLU and a dropout mask between them: the tiled kernel program
  against its plain reference, on the extended reals.

  Both programs gather the source rows of every edge and scatter-add them into the destination nodes with the
  same host operations, and both count the in-degree with the same scatter-add of ones and clamp it below by
  one. They differ in where the division by the degree happens: the reference divides the neighbour sums
  before the product with the neighbour weights; the kernel multiplies the finished product by the reciprocal,
  row by row, inside its two tiled regions (25 row blocks of 4000 nodes each). A clamped degree is at least
  one, so its reciprocal is a non-negative real, and multiplication by such a factor distributes over a finite
  sum of extended reals whatever the terms are: the two arrangements agree entry by entry, for the hidden
  features and then for the result. The changes of float format on the way into the kernel's products are the
  identity here, and the kernel's products into zero accumulators are the reference's.

  The frames of the two kernel programs are the generated ones; the reference's frame is its generated run with
  the result dropped; nothing was rewritten by the idealization, so there is nothing to preserve.
-/
import proofs.«112854_j6193342841309_2_alg».proof.Defs
import proofs.«112854_j6193342841309_2_alg».proof.Proof.Gen.Kernel
import proofs.«112854_j6193342841309_2_alg».proof.Proof.Gen.Kernel.Frame
import proofs.«112854_j6193342841309_2_alg».proof.Proof.Gen.KernelIdeal
import proofs.«112854_j6193342841309_2_alg».proof.Proof.Gen.KernelIdeal.Frame
import proofs.«112854_j6193342841309_2_alg».proof.Proof.Gen.ReferenceIdeal
import proofs.«112854_j6193342841309_2_alg».proof.Proof.Gen.ReferenceIdeal.Run
import proofs.«112854_j6193342841309_2_alg».proof.Proof.Gen.ReferenceIdeal.Read
import proofs.«112854_j6193342841309_2_alg».proof.Proof.Gen.Pre_finite_inputs
import proofs.«112854_j6193342841309_2_alg».proof.Proof.KernelRun
import proofs.«112854_j6193342841309_2_alg».proof.Proof.KernelValue
import proofs.«112854_j6193342841309_2_alg».proof.Proof.RefValue
import proofs.«112854_j6193342841309_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the second layer of the hidden
    features in their result: the kernel program in its arrangement, the reference in its own, and the two are
    one function. -/
theorem algebraic : Cert.algebraic_KernelIdeal_ReferenceIdeal := by
  intro m ρ m' ρ' _ hagree
  refine ⟨fun c => Cert.Sage.KernelValue.resultK m c, ?_, ?_⟩
  · exact (θ_run Cert.KernelIdeal.defs _ _).mono
      (fun r h c => ⟨(h c).1.trans (Cert.Sage.KernelValue.result m ρ c), (h c).2⟩)
      (Cert.Sage.KernelRun.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v54_eq, h0, h1, h2, h3, h4, h5, h6, h7, h8, h9,
      Cert.Sage.RefValue.result_eq]
    exact (Cert.Sage.result_bridge _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
